-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S4096x256 : Shape := ⟨2, ![4096, 256]⟩
abbrev S4096x2 : Shape := ⟨2, ![4096, 2]⟩
abbrev S256x4096 : Shape := ⟨2, ![256, 4096]⟩
abbrev S256x32 : Shape := ⟨2, ![256, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096x2 : S_.BroadcastsInDim S4096x2 (![] : Fin 0 → Fin S4096x2.rank)
  reducesTo_S4096x2_S_d0_1 : S4096x2.ReducesTo [0, 1] S_
  bcast_S_S256x32 : S_.BroadcastsInDim S256x32 (![] : Fin 0 → Fin S256x32.rank)
  reducesTo_S256x32_S_d0_1 : S256x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg7 : FVec F S4096 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S4096 .f32 := Host.absf main_arg7
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : IVec S4096x4096 32) (main_arg2 : FVec F S4096x32 .f32) (main_arg3 : IVec S4096x256 32) (main_arg4 : FVec F S4096x2 .f32) (main_arg5 : IVec S256x4096 32) (main_arg6 : FVec F S256x32 .f32) (main_arg7 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x2 .f32 := Host.absf main_arg4
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S256x32 .f32 := Host.absf main_arg6
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg7 main_v13 main_v16
-- ==== Kernel.lean ====
abbrev S8192x4096 : Shape := ⟨2, ![8192, 4096]⟩
abbrev S4096x4096 : Shape := ⟨2, ![4096, 4096]⟩
abbrev S4096x32 : Shape := ⟨2, ![4096, 32]⟩
abbrev S4096x256 : Shape := ⟨2, ![4096, 256]⟩
abbrev S4096x2 : Shape := ⟨2, ![4096, 2]⟩
abbrev S256x4096 : Shape := ⟨2, ![256, 4096]⟩
abbrev S256x32 : Shape := ⟨2, ![256, 32]⟩
abbrev S4096 : Shape := ⟨1, ![4096]⟩
abbrev S1x4096 : Shape := ⟨2, ![1, 4096]⟩
abbrev S8192x256 : Shape := ⟨2, ![8192, 256]⟩
abbrev S256x256 : Shape := ⟨2, ![256, 256]⟩
abbrev S256x32x128 : Shape := ⟨3, ![256, 32, 128]⟩
abbrev S256x32x1 : Shape := ⟨3, ![256, 32, 1]⟩
abbrev S256x2 : Shape := ⟨2, ![256, 2]⟩
abbrev S1x256 : Shape := ⟨2, ![1, 256]⟩
abbrev S256x2x128 : Shape := ⟨3, ![256, 2, 128]⟩
abbrev S256x2x1 : Shape := ⟨3, ![256, 2, 1]⟩

abbrev nBuf : Space → Nat
  | .hbm => 11
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x256, .i32⟩
  | .hbm, ⟨4, _⟩ => ⟨S4096x2, .f32⟩
  | .hbm, ⟨5, _⟩ => ⟨S256x4096, .i32⟩
  | .hbm, ⟨6, _⟩ => ⟨S256x32, .f32⟩
  | .hbm, ⟨7, _⟩ => ⟨S4096, .f32⟩
  | .hbm, ⟨8, _⟩ => ⟨S1x4096, .f32⟩
  | .hbm, ⟨9, _⟩ => ⟨S8192x256, .f32⟩
  | .hbm, ⟨10, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x32, .f32⟩
  | .local _ .vmem, ⟨4, _⟩ => ⟨S256x256, .f32⟩
  | .local _ .vmem, ⟨5, _⟩ => ⟨S256x256, .f32⟩
  | .local _ .vmem, ⟨6, _⟩ => ⟨S256x4096, .f32⟩
  | .local _ .vmem, ⟨7, _⟩ => ⟨S256x4096, .f32⟩
  | .local _ .vmem, ⟨8, _⟩ => ⟨S256x4096, .i32⟩
  | .local _ .vmem, ⟨9, _⟩ => ⟨S256x4096, .i32⟩
  | .local _ .vmem, ⟨10, _⟩ => ⟨S256x32, .f32⟩
  | .local _ .vmem, ⟨11, _⟩ => ⟨S256x32, .f32⟩
  | .local _ .vmem, ⟨12, _⟩ => ⟨S256x256, .f32⟩
  | .local _ .vmem, ⟨13, _⟩ => ⟨S256x256, .f32⟩
  | .local _ .vmem, ⟨14, _⟩ => ⟨S256x256, .i32⟩
  | .local _ .vmem, ⟨15, _⟩ => ⟨S256x256, .i32⟩
  | .local _ .vmem, ⟨16, _⟩ => ⟨S256x2, .f32⟩
  | .local _ .vmem, ⟨17, _⟩ => ⟨S256x2, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S256x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  shapeCasts_S256x256_S256x2x128 : S256x256.ShapeCasts S256x2x128
  shapeCasts_S256x2_S256x2x1 : S256x2.ShapeCasts S256x2x1
  broadcasts_S256x2x1_S256x2x128 : S256x2x1.Broadcasts S256x2x128
  shapeCasts_S256x2x128_S256x256 : S256x2x128.ShapeCasts S256x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x4096_S256x4096_S256x256_1_1_0_0_n_n_wf : DotDims.WF S256x4096 S256x4096 S256x256 [1] [1] [0] [0] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .i32 = 32 ∨ (Rect.block (s := S256x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x256.size a
  hwx0_3 : ∀ i : grid0.Coords, EltTy.bits .f32 = 32 ∨ (Rect.block (s := S8192x256) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .i32 = 32 ∨ (Rect.block (s := S4096x4096) S256x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x32.size a ≤ S4096x32.size a
  hwx1_2 : ∀ i : grid1.Coords, EltTy.bits .f32 = 32 ∨ (Rect.block (s := S4096x32) S256x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S8192x256.size a
  hwx1_3 : ∀ i : grid1.Coords, EltTy.bits .f32 = 32 ∨ (Rect.block (s := S8192x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .i32 = 32 ∨ (Rect.block (s := S4096x256) S256x256.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S4096x2.size a
  hwx1_5 : ∀ i : grid1.Coords, EltTy.bits .f32 = 32 ∨ (Rect.block (s := S4096x2) S256x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x4096.size a
  hwx1_6 : ∀ i : grid1.Coords, EltTy.bits .f32 = 32 ∨ (Rect.block (s := S1x4096) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S8192x4096.size a
  hwx1_7 : ∀ i : grid1.Coords, EltTy.bits .f32 = 32 ∨ (Rect.block (s := S8192x4096) S256x256.size (cc1_transform_7 i) (hinb1_7 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256x2.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2) S256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S4096x256 : Shape := ⟨2, ![4096, 256]⟩
abbrev S4096x2 : Shape := ⟨2, ![4096, 2]⟩
abbrev S256x4096 : Shape := ⟨2, ![256, 4096]⟩
abbrev S256x32 : Shape := ⟨2, ![256, 32]⟩
abbrev S4096 : Shape := ⟨1, ![4096]⟩
abbrev S4096x32x128 : Shape := ⟨3, ![4096, 32, 128]⟩
abbrev S4096x32x1 : Shape := ⟨3, ![4096, 32, 1]⟩
abbrev S4096x2x128 : Shape := ⟨3, ![4096, 2, 128]⟩
abbrev S4096x2x1 : Shape := ⟨3, ![4096, 2, 1]⟩
abbrev S256x32x128 : Shape := ⟨3, ![256, 32, 128]⟩
abbrev S256x32x1 : Shape := ⟨3, ![256, 32, 1]⟩
abbrev S8192x256 : Shape := ⟨2, ![8192, 256]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x256, .i32⟩
  | .hbm, ⟨4, _⟩ => ⟨S4096x2, .f32⟩
  | .hbm, ⟨5, _⟩ => ⟨S256x4096, .i32⟩
  | .hbm, ⟨6, _⟩ => ⟨S256x32, .f32⟩
  | .hbm, ⟨7, _⟩ => ⟨S4096, .f32⟩
  | .hbm, ⟨8, _⟩ => ⟨S4096x4096, .f32⟩
  | .hbm, ⟨9, _⟩ => ⟨S4096x32x128, .f32⟩
  | .hbm, ⟨10, _⟩ => ⟨S4096x32x1, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S4096x256, .f32⟩
  | .hbm, ⟨15, _⟩ => ⟨S4096x2x128, .f32⟩
  | .hbm, ⟨16, _⟩ => ⟨S4096x2x1, .f32⟩
  | .hbm, ⟨17, _⟩ => ⟨S4096x2x128, .f32⟩
  | .hbm, ⟨18, _⟩ => ⟨S4096x2x128, .f32⟩
  | .hbm, ⟨19, _⟩ => ⟨S4096x256, .f32⟩
  | .hbm, ⟨20, _⟩ => ⟨S256x4096, .f32⟩
  | .hbm, ⟨21, _⟩ => ⟨S256x32x128, .f32⟩
  | .hbm, ⟨22, _⟩ => ⟨S256x32x1, .f32⟩
  | .hbm, ⟨23, _⟩ => ⟨S256x32x128, .f32⟩
  | .hbm, ⟨24, _⟩ => ⟨S256x32x128, .f32⟩
  | .hbm, ⟨25, _⟩ => ⟨S256x4096, .f32⟩
  | .hbm, ⟨26, _⟩ => ⟨S8192x256, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  shapeCasts_S4096x256_S4096x2x128 : S4096x256.ShapeCasts S4096x2x128
  bcast_S4096x2_S4096x2x1_0_1 : S4096x2.BroadcastsInDim S4096x2x1 (![0, 1] : Fin 2 → Fin S4096x2x1.rank)
  bcast_S4096x2x1_S4096x2x128_0_1_2 : S4096x2x1.BroadcastsInDim S4096x2x128 (![0, 1, 2] : Fin 3 → Fin S4096x2x128.rank)
  shapeCasts_S4096x2x128_S4096x256 : S4096x2x128.ShapeCasts S4096x256
  shapeCasts_S256x4096_S256x32x128 : S256x4096.ShapeCasts S256x32x128
  bcast_S256x32_S256x32x1_0_1 : S256x32.BroadcastsInDim S256x32x1 (![0, 1] : Fin 2 → Fin S256x32x1.rank)
  bcast_S256x32x1_S256x32x128_0_1_2 : S256x32x1.BroadcastsInDim S256x32x128 (![0, 1, 2] : Fin 3 → Fin S256x32x128.rank)
  shapeCasts_S256x32x128_S256x4096 : S256x32x128.ShapeCasts S256x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S256x4096_S8192x256_1_1_0_0_n_n_wf : DotDims.WF S8192x4096 S256x4096 S8192x256 [1] [1] [0] [0] [] []
  dot_S8192x4096_S4096x4096_S8192x4096_1_1_0_0_n_n_wf : DotDims.WF S8192x4096 S4096x4096 S8192x4096 [1] [1] [0] [0] [] []
  dot_S8192x256_S4096x256_S8192x4096_1_1_0_0_n_n_wf : DotDims.WF S8192x256 S4096x256 S8192x4096 [1] [1] [0] [0] [] []

variable [Facts₀]

def dot_S8192x4096_S256x4096_S8192x256_1_1_0_0_n_n : DotDims S8192x4096 S256x4096 S8192x256 where
  lhsContracting := [1]
  rhsContracting := [1]
  lhsNonContracting := [0]
  rhsNonContracting := [0]
  lhsBatch := []
  rhsBatch := []
  wf := dot_S8192x4096_S256x4096_S8192x256_1_1_0_0_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.Run.lean ====
/-
  The kernel program's run with its result array named, and that array walked back to the launch memory.

  The program is one host reshape (the bias vector laid as a one-row array), then two launches.  Every weakly fair
  execution ends with the result array at what the second launch's write-backs leave; that launch reads x, the codes
  and scales of Q and L and the one-row bias as they were at launch (nothing before it writes them), and reads the
  projection from the array the first launch's write-backs leave; the first launch in turn reads x and the codes and
  scales of R as they were at launch.
-/
import proofs.«173456_j4166118277881_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

/-! ## The boundaries' contents walked back to the launch memory -/

/-- The host reshape writes only the one-row bias array: every other array enters the first launch as launched. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The one-row bias array, as both launches find it, is the bias vector in row-major order. -/
theorem W1_main_v0 (c : Dev nD) :
    W1 m ρ c (Proc.devRef .tc main_v0)
      = shapeCast S1x4096 (m ((c : Thread nD τ).loc main_arg7)) shapeCasts_S4096_S1x4096 := by
  show StableHlo.after hostOps0 (W0 m ρ c) (Proc.devRef .tc main_v0) = _
  after_results
  rfl

/-- The first launch finds x, the codes of R and the scales of R as launched. -/
theorem V1_main_arg0 (c : Dev nD) : V1 m ρ c main_arg0 = m ((c : Thread nD τ).loc main_arg0) :=
  W1_of_ne m ρ c main_arg0 (by decide)
theorem V1_main_arg5 (c : Dev nD) : V1 m ρ c main_arg5 = m ((c : Thread nD τ).loc main_arg5) :=
  W1_of_ne m ρ c main_arg5 (by decide)
theorem V1_main_arg6 (c : Dev nD) : V1 m ρ c main_arg6 = m ((c : Thread nD τ).loc main_arg6) :=
  W1_of_ne m ρ c main_arg6 (by decide)

/-- The second launch finds x as launched: the first launch only reads it. -/
theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans
    (W1_of_ne m ρ c main_arg0 (by decide))
/-- The second launch finds the codes and scales of Q and L as launched: nothing before it touches them. -/
theorem V2_main_arg1 (c : Dev nD) : V2 m ρ c main_arg1 = m ((c : Thread nD τ).loc main_arg1) :=
  (W2_of_ne m ρ c main_arg1 (by decide)).trans (W1_of_ne m ρ c main_arg1 (by decide))
theorem V2_main_arg2 (c : Dev nD) : V2 m ρ c main_arg2 = m ((c : Thread nD τ).loc main_arg2) :=
  (W2_of_ne m ρ c main_arg2 (by decide)).trans (W1_of_ne m ρ c main_arg2 (by decide))
theorem V2_main_arg3 (c : Dev nD) : V2 m ρ c main_arg3 = m ((c : Thread nD τ).loc main_arg3) :=
  (W2_of_ne m ρ c main_arg3 (by decide)).trans (W1_of_ne m ρ c main_arg3 (by decide))
theorem V2_main_arg4 (c : Dev nD) : V2 m ρ c main_arg4 = m ((c : Thread nD τ).loc main_arg4) :=
  (W2_of_ne m ρ c main_arg4 (by decide)).trans (W1_of_ne m ρ c main_arg4 (by decide))
/-- The second launch finds the one-row bias array as the host reshape left it. -/
theorem V2_main_v0 (c : Dev nD) :
    V2 m ρ c main_v0 = shapeCast S1x4096 (m ((c : Thread nD τ).loc main_arg7)) shapeCasts_S4096_S1x4096 :=
  (W2_of_ne m ρ c main_v0 (by decide)).trans (W1_main_v0 m ρ c)
/-- The second launch finds the projection array at what the first launch's write-backs leave. -/
theorem V2_main_v1 (c : Dev nD) : V2 m ρ c main_v1 = (dat0 (V1 m ρ) c).arrAt 3 cfg0.N :=
  W2_arr m ρ c 3
/-- The result array at the last boundary is what the second launch's write-backs leave. -/
theorem W3_main_v2 (c : Dev nD) : W3 m ρ c (Proc.devRef .tc main_v2) = (dat1 (V2 m ρ) c).arrAt 7 cfg1.N :=
  W3_arr m ρ c 7

/-- The one-row array read at (0, o) is the vector's entry o. -/
theorem row_apply {α : Type} (b : S4096.Idx → α) (o : Fin 4096) :
    shapeCast S1x4096 b shapeCasts_S4096_S1x4096 (ValueIdx.ix2 (0 : Fin 1) o) = b (ValueIdx.ix1 o) :=
  shapeCast_apply b shapeCasts_S4096_S1x4096 (ValueIdx.ix2 (0 : Fin 1) o) (ValueIdx.ix1 o) (by
    rw [Shape.rowMajor_val_one, Shape.rowMajor_val_two]
    show o.val = 0 * 4096 + o.val
    omega)

end Cert.KernelIdeal.Named

end
-- ==== Proof.Spec.lean ====
/-
  The specification both programs are compared against, stated entry by entry over the extended reals.

  A weight matrix is stored as integer codes with one scale per group of 128 consecutive columns: the weight at
  (row, column k) is the code at (row, k), read as a signed integer, times the scale at (row, k / 128).  With
  Q, L, R the three weight matrices so read, the layer computes, at token t and output o,

      out(t, o) = Σ_k x(t,k) · Q(o,k)  +  Σ_r xr(t,r) · L(o,r)  +  bias(o),      xr(t, r) = Σ_k x(t,k) · R(r,k).

  Sums over a finite index set in the extended reals are sums in a commutative monoid, so no order of summation,
  tiling or grouping of the terms matters, and no finiteness of the inputs is used anywhere.
-/
import Idealize.ShloMosaic.PureOps.Ideal
import Idealize.ShloMosaic.Lib.ValueIdx

noncomputable section

open scoped BigOperators

namespace Cert.LowRank

open Idealize.ShloMosaic Idealize.ShloMosaic.ValueIdx

/-- The group of 128 columns that column `k` of 4096 lies in. -/
abbrev g32 (k : Fin 4096) : Fin 32 := ⟨k.val / 128, by have := k.isLt; omega⟩
/-- The group of 128 columns that column `k` of 256 lies in. -/
abbrev g2 (k : Fin 256) : Fin 2 := ⟨k.val / 128, by have := k.isLt; omega⟩

/-- A weight of a 4096-column matrix: its integer code times the scale of its group. -/
def deq32 {R : Nat} (v : IVec ⟨2, ![R, 4096]⟩ 32) (s : FVec Ideal ⟨2, ![R, 32]⟩ .f32) (r : Fin R) (k : Fin 4096) : EReal :=
  FloatOps.sitofp (F := Ideal) .f32 (v (ix2 r k)) * s (ix2 r (g32 k))

/-- A weight of a 256-column matrix: its integer code times the scale of its group. -/
def deq2 {R : Nat} (v : IVec ⟨2, ![R, 256]⟩ 32) (s : FVec Ideal ⟨2, ![R, 2]⟩ .f32) (r : Fin R) (k : Fin 256) : EReal :=
  FloatOps.sitofp (F := Ideal) .f32 (v (ix2 r k)) * s (ix2 r (g2 k))

/-- The low-rank projection at (token t, rank index r): the row x(t, ·) against the row R(r, ·). -/
def xrAt (x : FVec Ideal ⟨2, ![8192, 4096]⟩ .f32) (rv : IVec ⟨2, ![256, 4096]⟩ 32) (rs : FVec Ideal ⟨2, ![256, 32]⟩ .f32)
    (t : Fin 8192) (r : Fin 256) : EReal :=
  ∑ k : Fin 4096, x (ix2 t k) * deq32 rv rs r k

/-- The low-rank projection as an array [8192, 256]. -/
def xrSpec (x : FVec Ideal ⟨2, ![8192, 4096]⟩ .f32) (rv : IVec ⟨2, ![256, 4096]⟩ 32) (rs : FVec Ideal ⟨2, ![256, 32]⟩ .f32) :
    FVec Ideal ⟨2, ![8192, 256]⟩ .f32 :=
  fun j => xrAt x rv rs (j 0) (j 1)

theorem xrSpec_ix2 (x : FVec Ideal ⟨2, ![8192, 4096]⟩ .f32) (rv : IVec ⟨2, ![256, 4096]⟩ 32) (rs : FVec Ideal ⟨2, ![256, 32]⟩ .f32)
    (t : Fin 8192) (r : Fin 256) : xrSpec x rv rs (ix2 t r) = xrAt x rv rs t r := rfl

/-- The layer's output at (token t, output o), from x, the codes and scales of Q, a projection array xr, the codes and
    scales of L, and the bias as a function of the output index. -/
def outAt (x : FVec Ideal ⟨2, ![8192, 4096]⟩ .f32) (qv : IVec ⟨2, ![4096, 4096]⟩ 32) (qs : FVec Ideal ⟨2, ![4096, 32]⟩ .f32)
    (xr : FVec Ideal ⟨2, ![8192, 256]⟩ .f32) (lv : IVec ⟨2, ![4096, 256]⟩ 32) (ls : FVec Ideal ⟨2, ![4096, 2]⟩ .f32)
    (bias : Fin 4096 → EReal) (t : Fin 8192) (o : Fin 4096) : EReal :=
  (∑ k : Fin 4096, x (ix2 t k) * deq32 qv qs o k) + (∑ r : Fin 256, xr (ix2 t r) * deq2 lv ls o r) + bias o

/-- The layer's output as an array [8192, 4096]. -/
def outSpec (x : FVec Ideal ⟨2, ![8192, 4096]⟩ .f32) (qv : IVec ⟨2, ![4096, 4096]⟩ 32) (qs : FVec Ideal ⟨2, ![4096, 32]⟩ .f32)
    (xr : FVec Ideal ⟨2, ![8192, 256]⟩ .f32) (lv : IVec ⟨2, ![4096, 256]⟩ 32) (ls : FVec Ideal ⟨2, ![4096, 2]⟩ .f32)
    (bias : Fin 4096 → EReal) : FVec Ideal ⟨2, ![8192, 4096]⟩ .f32 :=
  fun j => outAt x qv qs xr lv ls bias (j 0) (j 1)

theorem outSpec_ix2 (x : FVec Ideal ⟨2, ![8192, 4096]⟩ .f32) (qv : IVec ⟨2, ![4096, 4096]⟩ 32) (qs : FVec Ideal ⟨2, ![4096, 32]⟩ .f32)
    (xr : FVec Ideal ⟨2, ![8192, 256]⟩ .f32) (lv : IVec ⟨2, ![4096, 256]⟩ 32) (ls : FVec Ideal ⟨2, ![4096, 2]⟩ .f32)
    (bias : Fin 4096 → EReal) (t : Fin 8192) (o : Fin 4096) :
    outSpec x qv qs xr lv ls bias (ix2 t o) = outAt x qv qs xr lv ls bias t o := rfl

end Cert.LowRank

end
-- ==== Proof.Payload.lean ====
/-
  The two kernel bodies' stored values, read at one entry (p, q) of their 256 × 256 output tile, at the ideal values.
-/
import proofs.«173456_j4166118277881_1_alg».proof.Proof.Gen.KernelIdeal.Skeleton
import proofs.«173456_j4166118277881_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LowRank

open Idealize.ShloMosaic Idealize.ShloMosaic.ValueIdx Cert.KernelIdeal

variable [Cert.KernelIdeal.Facts]

open Facts₀ Facts

/-- The dequantised 4096-column block as the kernel builds it — codes viewed as [256, 32, 128], times the scales viewed as [256, 32, 1] and repeated along the last axis, viewed back as [256, 4096] — is, at (q, k), the code at (q, k) times the scale of k's group. -/
theorem deq32_block (v0 : Vec Ideal S256x4096 .i32) (v1 : Vec Ideal S256x32 .f32) (q : Fin 256) (k : Fin 4096) :
    shapeCast S256x4096
        (mulf (shapeCast S256x32x128 (sitofp (F := Ideal) .f32 v0) shapeCasts_S256x4096_S256x32x128)
          (broadcastTo S256x32x128 (shapeCast S256x32x1 v1 shapeCasts_S256x32_S256x32x1) broadcasts_S256x32x1_S256x32x128))
        shapeCasts_S256x32x128_S256x4096 (ix2 q k)
      = deq32 v0 v1 q k := by
  -- column k of row q is entry (q, k / 128, k % 128) of the grouped array: both sit at the same row-major position
  refine (shapeCast_apply _ _ (ix2 q k) (ix3 q (g32 k) (⟨k.val % 128, Nat.mod_lt _ (by decide)⟩ : Fin 128)) ?_).trans ?_
  · rw [Shape.rowMajor_val_three, Shape.rowMajor_val_two]
    show (q.val * 32 + k.val / 128) * 128 + k.val % 128 = q.val * 4096 + k.val
    omega
  · refine (mulf_apply _ _ _).trans ?_
    unfold deq32
    refine congrArg₂ (· * ·) ?_ ?_
    · -- the codes: the grouped view read back at the same row-major position
      refine (shapeCast_apply _ _ _ (ix2 q k) ?_).trans ?_
      · rw [Shape.rowMajor_val_two, Shape.rowMajor_val_three]
        show q.val * 4096 + k.val = (q.val * 32 + k.val / 128) * 128 + k.val % 128
        omega
      · rfl
    · -- the scales: constant along the last axis, one per (row, group)
      refine (broadcastTo_apply _ _ _ (ix3 q (g32 k) (0 : Fin 1)) ?_).trans ?_
      · intro a
        match a with
        | ⟨0, _⟩ => show q.val = if (256 : Nat) = 1 then 0 else q.val; rw [if_neg (by decide)]
        | ⟨1, _⟩ => show k.val / 128 = if (32 : Nat) = 1 then 0 else k.val / 128; rw [if_neg (by decide)]
        | ⟨2, _⟩ => show 0 = if (1 : Nat) = 1 then 0 else k.val % 128; rw [if_pos rfl]
      · refine shapeCast_apply _ _ _ (ix2 q (g32 k)) ?_
        rw [Shape.rowMajor_val_two, Shape.rowMajor_val_three]
        show q.val * 32 + k.val / 128 = (q.val * 32 + k.val / 128) * 1 + 0
        omega

/-- The same for a 256-column block: two groups of 128 columns per row. -/
theorem deq2_block (v0 : Vec Ideal S256x256 .i32) (v1 : Vec Ideal S256x2 .f32) (q : Fin 256) (k : Fin 256) :
    shapeCast S256x256
        (mulf (shapeCast S256x2x128 (sitofp (F := Ideal) .f32 v0) shapeCasts_S256x256_S256x2x128)
          (broadcastTo S256x2x128 (shapeCast S256x2x1 v1 shapeCasts_S256x2_S256x2x1) broadcasts_S256x2x1_S256x2x128))
        shapeCasts_S256x2x128_S256x256 (ix2 q k)
      = deq2 v0 v1 q k := by
  -- column k of row q is entry (q, k / 128, k % 128) of the grouped array: both sit at the same row-major position
  refine (shapeCast_apply _ _ (ix2 q k) (ix3 q (g2 k) (⟨k.val % 128, Nat.mod_lt _ (by decide)⟩ : Fin 128)) ?_).trans ?_
  · rw [Shape.rowMajor_val_three, Shape.rowMajor_val_two]
    show (q.val * 2 + k.val / 128) * 128 + k.val % 128 = q.val * 256 + k.val
    omega
  · refine (mulf_apply _ _ _).trans ?_
    unfold deq2
    refine congrArg₂ (· * ·) ?_ ?_
    · -- the codes: the grouped view read back at the same row-major position
      refine (shapeCast_apply _ _ _ (ix2 q k) ?_).trans ?_
      · rw [Shape.rowMajor_val_two, Shape.rowMajor_val_three]
        show q.val * 256 + k.val = (q.val * 2 + k.val / 128) * 128 + k.val % 128
        omega
      · rfl
    · -- the scales: constant along the last axis, one per (row, group)
      refine (broadcastTo_apply _ _ _ (ix3 q (g2 k) (0 : Fin 1)) ?_).trans ?_
      · intro a
        match a with
        | ⟨0, _⟩ => show q.val = if (256 : Nat) = 1 then 0 else q.val; rw [if_neg (by decide)]
        | ⟨1, _⟩ => show k.val / 128 = if (2 : Nat) = 1 then 0 else k.val / 128; rw [if_neg (by decide)]
        | ⟨2, _⟩ => show 0 = if (1 : Nat) = 1 then 0 else k.val % 128; rw [if_pos rfl]
      · refine shapeCast_apply _ _ _ (ix2 q (g2 k)) ?_
        rw [Shape.rowMajor_val_two, Shape.rowMajor_val_three]
        show q.val * 2 + k.val / 128 = (q.val * 2 + k.val / 128) * 1 + 0
        omega

/-- Coordinates of the two operand indices of `mm4096`: the non-contracted axis follows the output index, the contracted axis
    follows the contraction index. -/
theorem mm4096_lhs0 (j : S256x256.Idx) (c : dot_S256x4096_S256x4096_S256x256_1_1_0_0_n_n.contr.Idx) : (dot_S256x4096_S256x4096_S256x256_1_1_0_0_n_n.lhsIdx j c 0).val = (j 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem mm4096_lhs1 (j : S256x256.Idx) (c : dot_S256x4096_S256x4096_S256x256_1_1_0_0_n_n.contr.Idx) : (dot_S256x4096_S256x4096_S256x256_1_1_0_0_n_n.lhsIdx j c 1).val = (c ⟨0, by decide⟩).val :=
  dot_S256x4096_S256x4096_S256x256_1_1_0_0_n_n.lhsIdx_val_of_single rfl j c
theorem mm4096_rhs0 (j : S256x256.Idx) (c : dot_S256x4096_S256x4096_S256x256_1_1_0_0_n_n.contr.Idx) : (dot_S256x4096_S256x4096_S256x256_1_1_0_0_n_n.rhsIdx j c 0).val = (j 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem mm4096_rhs1 (j : S256x256.Idx) (c : dot_S256x4096_S256x4096_S256x256_1_1_0_0_n_n.contr.Idx) : (dot_S256x4096_S256x4096_S256x256_1_1_0_0_n_n.rhsIdx j c 1).val = (c ⟨0, by decide⟩).val :=
  dot_S256x4096_S256x4096_S256x256_1_1_0_0_n_n.rhsIdx_val_of_single rfl j c

/-- A product into the zero tile, both operands contracted along their second axis: entry (p, q) is row p of the left operand
    against row q of the right one. -/
theorem mm4096_apply (lhs rhs : FVec Ideal S256x4096 .bf16) (p q : Fin 256) :
    matmul dot_S256x4096_S256x4096_S256x256_1_1_0_0_n_n none lhs rhs (constant (F := Ideal) S256x256 .f32 0x00000000#32) (ix2 p q)
      = ∑ k : Fin 4096, lhs (ix2 p k) * rhs (ix2 q k) := by
  show FloatOps.matmul dot_S256x4096_S256x4096_S256x256_1_1_0_0_n_n none lhs rhs (constant (F := Ideal) S256x256 .f32 0x00000000#32) (ix2 p q) = _
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k :=
    funext fun a => Fin.ext (by
      match a with
      | ⟨0, _⟩ => exact mm4096_lhs0 _ _
      | ⟨1, _⟩ => exact (mm4096_lhs1 _ _).trans hk)
  have er : dot_S256x4096_S256x4096_S256x256_1_1_0_0_n_n.rhsIdx (ix2 p q) ((contrEquiv1 dot_S256x4096_S256x4096_S256x256_1_1_0_0_n_n 4096 rfl rfl).symm k) = ix2 q k :=
    funext fun a => Fin.ext (by
      match a with
      | ⟨0, _⟩ => exact mm4096_rhs0 _ _
      | ⟨1, _⟩ => exact (mm4096_rhs1 _ _).trans hk)
  rw [el, er]

/-- Coordinates of the two operand indices of `mm256`: the non-contracted axis follows the output index, the contracted axis
    follows the contraction index. -/
theorem mm256_lhs0 (j : S256x256.Idx) (c : dot_S256x256_S256x256_S256x256_1_1_0_0_n_n.contr.Idx) : (dot_S256x256_S256x256_S256x256_1_1_0_0_n_n.lhsIdx j c 0).val = (j 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem mm256_lhs1 (j : S256x256.Idx) (c : dot_S256x256_S256x256_S256x256_1_1_0_0_n_n.contr.Idx) : (dot_S256x256_S256x256_S256x256_1_1_0_0_n_n.lhsIdx j c 1).val = (c ⟨0, by decide⟩).val :=
  dot_S256x256_S256x256_S256x256_1_1_0_0_n_n.lhsIdx_val_of_single rfl j c
theorem mm256_rhs0 (j : S256x256.Idx) (c : dot_S256x256_S256x256_S256x256_1_1_0_0_n_n.contr.Idx) : (dot_S256x256_S256x256_S256x256_1_1_0_0_n_n.rhsIdx j c 0).val = (j 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl
theorem mm256_rhs1 (j : S256x256.Idx) (c : dot_S256x256_S256x256_S256x256_1_1_0_0_n_n.contr.Idx) : (dot_S256x256_S256x256_S256x256_1_1_0_0_n_n.rhsIdx j c 1).val = (c ⟨0, by decide⟩).val :=
  dot_S256x256_S256x256_S256x256_1_1_0_0_n_n.rhsIdx_val_of_single rfl j c

/-- A product into the zero tile, both operands contracted along their second axis: entry (p, q) is row p of the left operand
    against row q of the right one. -/
theorem mm256_apply (lhs rhs : FVec Ideal S256x256 .bf16) (p q : Fin 256) :
    matmul dot_S256x256_S256x256_S256x256_1_1_0_0_n_n none lhs rhs (constant (F := Ideal) S256x256 .f32 0x00000000#32) (ix2 p q)
      = ∑ k : Fin 256, lhs (ix2 p k) * rhs (ix2 q k) := by
  show FloatOps.matmul dot_S256x256_S256x256_S256x256_1_1_0_0_n_n none lhs rhs (constant (F := Ideal) S256x256 .f32 0x00000000#32) (ix2 p q) = _
  rw [Ideal.matmul_constant_zero_apply, ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have el : dot_S256x256_S256x256_S256x256_1_1_0_0_n_n.lhsIdx (ix2 p q) ((contrEquiv1 dot_S256x256_S256x256_S256x256_1_1_0_0_n_n 256 rfl rfl).symm k) = ix2 p k :=
    funext fun a => Fin.ext (by
      match a with
      | ⟨0, _⟩ => exact mm256_lhs0 _ _
      | ⟨1, _⟩ => exact (mm256_lhs1 _ _).trans hk)
  have er : dot_S256x256_S256x256_S256x256_1_1_0_0_n_n.rhsIdx (ix2 p q) ((contrEquiv1 dot_S256x256_S256x256_S256x256_1_1_0_0_n_n 256 rfl rfl).symm k) = ix2 q k :=
    funext fun a => Fin.ext (by
      match a with
      | ⟨0, _⟩ => exact mm256_rhs0 _ _
      | ⟨1, _⟩ => exact (mm256_rhs1 _ _).trans hk)
  rw [el, er]

/-- The first body's tile: entry (p, q) is the row p of its x block against the row q of R. -/
theorem k0_pay1_apply (v0 : Vec Ideal S256x4096 .i32) (v1 : Vec Ideal S256x32 .f32) (v8 : Vec Ideal S256x4096 .f32)
    (p q : Fin 256) :
    Gen.k0_pay1 (F := Ideal) v0 v1 v8 (ix2 p q) = ∑ k : Fin 4096, v8 (ix2 p k) * deq32 v0 v1 q k := by
  unfold Gen.k0_pay1
  refine (mm4096_apply _ _ p q).trans ?_
  refine Finset.sum_congr rfl fun k _ => ?_
  -- narrowing to bf16 changes nothing at the ideal values
  refine congrArg₂ (· * ·) ?_ ?_
  · exact truncf_apply _ _ _
  · exact (truncf_apply (ψ := .bf16) _ bitsLt_bf16_f32 _).trans (deq32_block v0 v1 q k)

/-- The second body's tile: entry (p, q) is the row p of its x block against row q of its Q block, plus the row p of its
    xr block against row q of its L block, plus entry q of its bias block. -/
theorem k1_pay1_apply (v0 : Vec Ideal S256x4096 .i32) (v1 : Vec Ideal S256x32 .f32) (v8 : Vec Ideal S256x4096 .f32)
    (v12 : Vec Ideal S256x256 .i32) (v13 : Vec Ideal S256x2 .f32) (v20 : Vec Ideal S256x256 .f32) (v26 : Vec Ideal S1x256 .f32)
    (p q : Fin 256) :
    Gen.k1_pay1 (F := Ideal) v0 v1 v8 v12 v13 v20 v26 (ix2 p q)
      = (∑ k : Fin 4096, v8 (ix2 p k) * deq32 v0 v1 q k) + (∑ r : Fin 256, v20 (ix2 p r) * deq2 v12 v13 q r)
        + v26 (ix2 (0 : Fin 1) q) := by
  unfold Gen.k1_pay1
  refine (addf_apply _ _ _).trans (congrArg₂ (· + ·) ((addf_apply _ _ _).trans (congrArg₂ (· + ·) ?_ ?_)) ?_)
  · -- x against Q
    refine (mm4096_apply _ _ p q).trans (Finset.sum_congr rfl fun k _ => ?_)
    refine congrArg₂ (· * ·) ?_ ?_
    · exact truncf_apply _ _ _
    · exact (truncf_apply (ψ := .bf16) _ bitsLt_bf16_f32 _).trans (deq32_block v0 v1 q k)
  · -- xr against L; the cast of the xr block to its own shape is the identity
    refine (mm256_apply _ _ p q).trans (Finset.sum_congr rfl fun r _ => ?_)
    refine congrArg₂ (· * ·) ?_ ?_
    · exact (truncf_apply (ψ := .bf16) _ bitsLt_bf16_f32 _).trans (congrFun (shapeCast_self v20 _) _)
    · exact (truncf_apply (ψ := .bf16) _ bitsLt_bf16_f32 _).trans (deq2_block v12 v13 q r)
  · -- the bias row, repeated over the 256 rows of the tile
    exact (broadcastTo_1b_ab_apply _ _ p q).trans (congrFun (shapeCast_self v26 _) _)

end Cert.LowRank

end
-- ==== Proof.Region0.lean ====
/-
  The first launch: what its output array [8192, 256] holds once every grid point has written its tile back.

  Grid point t loads rows 256·t … 256·t + 255 of x and the whole of R's codes and scales, and writes tile t of the
  output: entry (p, q) of the tile is row 256·t + p of x against row q of R, which is the projection at
  (256·t + p, q).  The 32 tiles are disjoint row bands that cover the array, so the array ends at the projection.
-/
import proofs.«173456_j4166118277881_1_alg».proof.Proof.Gen.KernelIdeal.Frame
import proofs.«173456_j4166118277881_1_alg».proof.Proof.Payload
import Idealize.ShloMosaic.Lib.Pipeline.Value

noncomputable section

open scoped BigOperators

namespace Cert.LowRank

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The body's loads and its store start at the origin of their buffers. -/
theorem origin0 : (![0, 0] : Fin 2 → Nat) = fun _ => 0 := funext fun a => by fin_cases a <;> rfl

/-- The printed index maps, decided over the 32 grid points: the x window moves down with the output window, one band of
    256 rows per point; R's two windows and every second block coordinate stay at 0. -/
theorem bands0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- What grid point t writes back is tile t of the projection of the arrays the launch found. -/
theorem tile0_eq (c : Dev nD) (t : Fin cfg0.N) :
    (dat0 (F := Ideal) V c).flushed 3 t
      = ((cfg0.win 3).blk t).view.read (Elt Ideal) (xrSpec (V c main_arg0) (V c main_arg5) (V c main_arg6)) := by
  show (cfg0.win 3).cut (grid0.coords t) ((dat0 V c).after 3 t) = _
  rw [after0_3]
  unfold out0_3
  rw [View.canon_unit_zero origin0]
  simp only [View.ld_unit_zero (S := S256x4096) origin0, View.ld_unit_zero (S := S256x32) origin0]
  funext y
  obtain ⟨p, q, rfl⟩ : ∃ (p : Fin 256) (q : Fin 256), y = ix2 p q := ⟨y 0, y 1, eq_ix2 y⟩
  show k0_pay1 (iblk0 V c 1 t) (iblk0 V c 2 t) (iblk0 V c 0 t) (ix2 p q)
    = xrSpec (V c main_arg0) (V c main_arg5) (V c main_arg6) (((cfg0.win 3).blk t).view.emb (ix2 p q))
  refine (k0_pay1_apply _ _ _ p q).trans ?_
  obtain ⟨e0, e1, e2, e3, e4, e5, e6, e7⟩ := bands0 t
  have hemb : ((cfg0.win 3).blk t).view.emb (ix2 p q) = ix2 (⟨win0_3.index t (0 : Fin 2) * 256 + p.val, by have := p.isLt; omega⟩ : Fin 8192) q := by
    funext a; apply Fin.ext
    match a with
    | ⟨0, _⟩ => show win0_3.index t (0 : Fin 2) * 256 + 1 * p.val = win0_3.index t (0 : Fin 2) * 256 + p.val; omega
    | ⟨1, _⟩ => show win0_3.index t (1 : Fin 2) * 256 + 1 * q.val = q.val; omega
  rw [hemb, xrSpec_ix2]
  unfold xrAt
  refine Finset.sum_congr rfl fun k _ => ?_
  have hx : iblk0 V c 0 t (ix2 p k) = V c main_arg0 (ix2 (⟨win0_3.index t (0 : Fin 2) * 256 + p.val, by have := p.isLt; omega⟩ : Fin 8192) k) := by
    show V c main_arg0 (((cfg0.win 0).blk t).view.emb (ix2 p k)) = _
    refine congrArg (V c main_arg0) ?_
    funext a; apply Fin.ext
    match a with
    | ⟨0, _⟩ => show win0_0.index t (0 : Fin 2) * 256 + 1 * p.val = win0_3.index t (0 : Fin 2) * 256 + p.val; omega
    | ⟨1, _⟩ => show win0_0.index t (1 : Fin 2) * 4096 + 1 * k.val = k.val; omega
  have hv : iblk0 V c 1 t (ix2 q k) = V c main_arg5 (ix2 q k) := by
    show V c main_arg5 (((cfg0.win 1).blk t).view.emb (ix2 q k)) = _
    refine congrArg (V c main_arg5) ?_
    funext a; apply Fin.ext
    match a with
    | ⟨0, _⟩ => show win0_1.index t (0 : Fin 2) * 256 + 1 * q.val = q.val; omega
    | ⟨1, _⟩ => show win0_1.index t (1 : Fin 2) * 4096 + 1 * k.val = k.val; omega
  have hs : iblk0 V c 2 t (ix2 q (g32 k)) = V c main_arg6 (ix2 q (g32 k)) := by
    show V c main_arg6 (((cfg0.win 2).blk t).view.emb (ix2 q (g32 k))) = _
    refine congrArg (V c main_arg6) ?_
    funext a; apply Fin.ext
    match a with
    | ⟨0, _⟩ => show win0_2.index t (0 : Fin 2) * 256 + 1 * q.val = q.val; omega
    | ⟨1, _⟩ => show win0_2.index t (1 : Fin 2) * 32 + 1 * (k.val / 128) = k.val / 128; omega
  unfold deq32
  rw [hx, hv, hs]

/-- An index of the output array lies in point t's tile iff each coordinate lies in the tile's range on its axis. -/
theorem mem_tile0 (t : Fin cfg0.N) (i : S8192x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v1).slice (win0_3.rect t)).set ↔ _
  rw [View.set_slice_whole, Rect.mem_set_unit]
  exact Iff.rfl

/-- Every row band is some grid point's. -/
theorem bands0_onto : ∀ q0 : Fin 32, ∃ t : Fin cfg0.N, win0_3.index t = ![q0.val, 0] :=
  (by decide +kernel : ∀ q0 : Fin 32, ∃ t : Fin grid0.N, win0_3.index t = ![q0.val, 0])

/-- The tiles cover the output array: row i lies in band i / 256. -/
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := bands0_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_tile0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- After the first launch its output array is the low-rank projection of the arrays the launch found. -/
theorem arr0 (c : Dev nD) :
    (dat0 (F := Ideal) V c).arrAt 3 cfg0.N = xrSpec (V c main_arg0) (V c main_arg5) (V c main_arg6) :=
  (dat0 V c).arrAt_eq_of_cover 3 _ (fun t _ => tile0_eq V c t) cover0

end Cert.LowRank

end
-- ==== Proof.Region1.lean ====
/-
  The second launch: what its output array [8192, 4096] holds once every grid point has written its tile back.
-/
import proofs.«173456_j4166118277881_1_alg».proof.Proof.Gen.KernelIdeal.Frame
import proofs.«173456_j4166118277881_1_alg».proof.Proof.Payload
import Idealize.ShloMosaic.Lib.Pipeline.Value

noncomputable section

open scoped BigOperators

namespace Cert.LowRank

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The offsets (0, 0) at which the body loads and stores whole blocks. -/
theorem zero_offsets : (![0, 0] : Fin 2 → Nat) = fun _ => 0 := funext fun a => by fin_cases a <;> rfl

/-- One entry of a tile, as arithmetic over the whole arrays: when the body's seven blocks are the parts of their arrays
    that row block i0 names (x and the projection) and that column block j0 names (the codes and scales of Q and L by
    rows, the bias by columns), its entry (p, q) is the layer's output at (256·i0 + p, 256·j0 + q): the two sums agree
    term by term, and so does the bias. -/
theorem out_tile
    (A0 : FVec Ideal ⟨2, ![8192, 4096]⟩ .f32) (Aqv : IVec ⟨2, ![4096, 4096]⟩ 32) (Aqs : FVec Ideal ⟨2, ![4096, 32]⟩ .f32)
    (Axr : FVec Ideal ⟨2, ![8192, 256]⟩ .f32) (Alv : IVec ⟨2, ![4096, 256]⟩ 32) (Als : FVec Ideal ⟨2, ![4096, 2]⟩ .f32)
    (Ab : FVec Ideal ⟨2, ![1, 4096]⟩ .f32)
    (QV : Vec Ideal S256x4096 .i32) (QS : Vec Ideal S256x32 .f32) (X : Vec Ideal S256x4096 .f32)
    (LV : Vec Ideal S256x256 .i32) (LS : Vec Ideal S256x2 .f32) (XR : Vec Ideal S256x256 .f32) (B : Vec Ideal S1x256 .f32)
    (i0 : ℕ) (hi : i0 < 32) (j0 : ℕ) (hj : j0 < 16)
    (hX : ∀ (p : Fin 256) (k : Fin 4096), X (ix2 p k) = A0 (ix2 ⟨i0 * 256 + p.val, by omega⟩ k))
    (hQV : ∀ (q : Fin 256) (k : Fin 4096), QV (ix2 q k) = Aqv (ix2 ⟨j0 * 256 + q.val, by omega⟩ k))
    (hQS : ∀ (q : Fin 256) (g : Fin 32), QS (ix2 q g) = Aqs (ix2 ⟨j0 * 256 + q.val, by omega⟩ g))
    (hXR : ∀ (p : Fin 256) (r : Fin 256), XR (ix2 p r) = Axr (ix2 ⟨i0 * 256 + p.val, by omega⟩ r))
    (hLV : ∀ (q : Fin 256) (r : Fin 256), LV (ix2 q r) = Alv (ix2 ⟨j0 * 256 + q.val, by omega⟩ r))
    (hLS : ∀ (q : Fin 256) (g : Fin 2), LS (ix2 q g) = Als (ix2 ⟨j0 * 256 + q.val, by omega⟩ g))
    (hB : ∀ q : Fin 256, B (ix2 (0 : Fin 1) q) = Ab (ix2 (0 : Fin 1) ⟨j0 * 256 + q.val, by omega⟩))
    (p q : Fin 256) :
    Gen.k1_pay1 (F := Ideal) QV QS X LV LS XR B (ix2 p q)
      = outAt A0 Aqv Aqs Axr Alv Als (fun o => Ab (ix2 (0 : Fin 1) o))
          ⟨i0 * 256 + p.val, by omega⟩ ⟨j0 * 256 + q.val, by omega⟩ := by
  refine (k1_pay1_apply QV QS X LV LS XR B p q).trans ?_
  unfold outAt
  have eQ : ∀ k : Fin 4096, X (ix2 p k) * deq32 QV QS q k
      = A0 (ix2 ⟨i0 * 256 + p.val, by omega⟩ k) * deq32 Aqv Aqs ⟨j0 * 256 + q.val, by omega⟩ k := fun k => by
    unfold deq32; rw [hX, hQV, hQS]
  have eL : ∀ r : Fin 256, XR (ix2 p r) * deq2 LV LS q r
      = Axr (ix2 ⟨i0 * 256 + p.val, by omega⟩ r) * deq2 Alv Als ⟨j0 * 256 + q.val, by omega⟩ r := fun r => by
    unfold deq2; rw [hXR, hLV, hLS]
  rw [Finset.sum_congr rfl fun k _ => eQ k, Finset.sum_congr rfl fun r _ => eL r, hB]

/-- Along the grid, the windows over x and over the projection sit on the tile's row block, and there are 32 row blocks. -/
theorem row_blocks : ∀ t : Fin cfg1.N,
    win1_0.index t (0 : Fin 2) = win1_7.index t (0 : Fin 2) ∧ win1_0.index t (1 : Fin 2) = 0
    ∧ win1_3.index t (0 : Fin 2) = win1_7.index t (0 : Fin 2) ∧ win1_3.index t (1 : Fin 2) = 0
    ∧ win1_7.index t (0 : Fin 2) ≤ 31 :=
  (by decide +kernel : ∀ t : Fin grid1.N, _)

/-- Along the grid, the windows over the codes and scales of Q and L sit, by rows, on the tile's column block, the window
    over the bias sits on it by columns, and there are 16 column blocks. -/
theorem col_blocks : ∀ t : Fin cfg1.N,
    win1_1.index t (0 : Fin 2) = win1_7.index t (1 : Fin 2) ∧ win1_1.index t (1 : Fin 2) = 0
    ∧ win1_2.index t (0 : Fin 2) = win1_7.index t (1 : Fin 2) ∧ win1_2.index t (1 : Fin 2) = 0
    ∧ win1_4.index t (0 : Fin 2) = win1_7.index t (1 : Fin 2) ∧ win1_4.index t (1 : Fin 2) = 0
    ∧ win1_5.index t (0 : Fin 2) = win1_7.index t (1 : Fin 2) ∧ win1_5.index t (1 : Fin 2) = 0
    ∧ win1_6.index t (0 : Fin 2) = 0 ∧ win1_6.index t (1 : Fin 2) = win1_7.index t (1 : Fin 2)
    ∧ win1_7.index t (1 : Fin 2) ≤ 15 :=
  (by decide +kernel : ∀ t : Fin grid1.N, _)

/-- The grid runs over the 32 × 16 tiles row by row: point t writes tile (t / 16, t mod 16). -/
theorem tile_of_point : ∀ t : Fin cfg1.N,
    win1_7.index t (0 : Fin 2) = t.val / 16 ∧ win1_7.index t (1 : Fin 2) = t.val % 16 :=
  (by decide +kernel : ∀ t : Fin grid1.N, _)

/-- What grid point t writes back is its tile of the layer's output: each of the seven blocks the body loads is the part
    of its array that the tile's row block (for x and the projection) or column block (for the weights and the bias)
    names, so the body's entry (p, q) is the output at (256·i + p, 256·j + q). -/
theorem tile_written (c : Dev nD) (t : Fin cfg1.N) :
    (dat1 (F := Ideal) V c).flushed 7 t
      = ((cfg1.win 7).blk t).view.read (Elt Ideal)
          (outSpec (V c main_arg0) (V c main_arg1) (V c main_arg2) (V c main_v1) (V c main_arg3) (V c main_arg4)
            (fun o => V c main_v0 (ix2 (0 : Fin 1) o))) := by
  show (cfg1.win 7).cut (grid1.coords t) ((dat1 V c).after 7 t) = _
  rw [after1_7]
  unfold out1_7
  rw [View.canon_unit_zero zero_offsets]
  simp only [View.ld_unit_zero (S := S256x4096) zero_offsets, View.ld_unit_zero (S := S256x32) zero_offsets,
    View.ld_unit_zero (S := S256x256) zero_offsets, View.ld_unit_zero (S := S256x2) zero_offsets,
    View.ld_unit_zero (S := S1x256) zero_offsets]
  funext y
  obtain ⟨p, q, rfl⟩ : ∃ (p : Fin 256) (q : Fin 256), y = ix2 p q := ⟨y 0, y 1, eq_ix2 y⟩
  show k1_pay1 (iblk1 V c 1 t) (iblk1 V c 2 t) (iblk1 V c 0 t) (iblk1 V c 4 t) (iblk1 V c 5 t) (iblk1 V c 3 t)
      (iblk1 V c 6 t) (ix2 p q)
    = outSpec (V c main_arg0) (V c main_arg1) (V c main_arg2) (V c main_v1) (V c main_arg3) (V c main_arg4)
        (fun o => V c main_v0 (ix2 (0 : Fin 1) o)) (((cfg1.win 7).blk t).view.emb (ix2 p q))
  obtain ⟨r0, r1, r2, r3, r4⟩ := row_blocks t
  obtain ⟨c0, c1, c2, c3, c4, c5, c6, c7, c8, c9, c10⟩ := col_blocks t
  have hp : p.val < 256 := p.isLt
  have hq : q.val < 256 := q.isLt
  have hemb : ((cfg1.win 7).blk t).view.emb (ix2 p q)
      = ix2 (⟨win1_7.index t (0 : Fin 2) * 256 + p.val, by omega⟩ : Fin 8192)
          (⟨win1_7.index t (1 : Fin 2) * 256 + q.val, by omega⟩ : Fin 4096) := by
    funext a; apply Fin.ext
    match a with
    | ⟨0, _⟩ => show win1_7.index t (0 : Fin 2) * 256 + 1 * p.val = win1_7.index t (0 : Fin 2) * 256 + p.val; omega
    | ⟨1, _⟩ => show win1_7.index t (1 : Fin 2) * 256 + 1 * q.val = win1_7.index t (1 : Fin 2) * 256 + q.val; omega
  rw [hemb, outSpec_ix2]
  refine out_tile (V c main_arg0) (V c main_arg1) (V c main_arg2) (V c main_v1) (V c main_arg3) (V c main_arg4)
    (V c main_v0) (iblk1 V c 1 t) (iblk1 V c 2 t) (iblk1 V c 0 t) (iblk1 V c 4 t) (iblk1 V c 5 t) (iblk1 V c 3 t)
    (iblk1 V c 6 t) (win1_7.index t (0 : Fin 2)) (by omega) (win1_7.index t (1 : Fin 2)) (by omega)
    ?_ ?_ ?_ ?_ ?_ ?_ ?_ p q
  · intro p k
    show V c main_arg0 (((cfg1.win 0).blk t).view.emb (ix2 p k)) = _
    refine congrArg (V c main_arg0) ?_
    funext a; apply Fin.ext
    match a with
    | ⟨0, _⟩ => show win1_0.index t (0 : Fin 2) * 256 + 1 * p.val = win1_7.index t (0 : Fin 2) * 256 + p.val; omega
    | ⟨1, _⟩ => show win1_0.index t (1 : Fin 2) * 4096 + 1 * k.val = k.val; omega
  · intro q k
    show V c main_arg1 (((cfg1.win 1).blk t).view.emb (ix2 q k)) = _
    refine congrArg (V c main_arg1) ?_
    funext a; apply Fin.ext
    match a with
    | ⟨0, _⟩ => show win1_1.index t (0 : Fin 2) * 256 + 1 * q.val = win1_7.index t (1 : Fin 2) * 256 + q.val; omega
    | ⟨1, _⟩ => show win1_1.index t (1 : Fin 2) * 4096 + 1 * k.val = k.val; omega
  · intro q g
    show V c main_arg2 (((cfg1.win 2).blk t).view.emb (ix2 q g)) = _
    refine congrArg (V c main_arg2) ?_
    funext a; apply Fin.ext
    match a with
    | ⟨0, _⟩ => show win1_2.index t (0 : Fin 2) * 256 + 1 * q.val = win1_7.index t (1 : Fin 2) * 256 + q.val; omega
    | ⟨1, _⟩ => show win1_2.index t (1 : Fin 2) * 32 + 1 * g.val = g.val; omega
  · intro p r
    show V c main_v1 (((cfg1.win 3).blk t).view.emb (ix2 p r)) = _
    refine congrArg (V c main_v1) ?_
    funext a; apply Fin.ext
    match a with
    | ⟨0, _⟩ => show win1_3.index t (0 : Fin 2) * 256 + 1 * p.val = win1_7.index t (0 : Fin 2) * 256 + p.val; omega
    | ⟨1, _⟩ => show win1_3.index t (1 : Fin 2) * 256 + 1 * r.val = r.val; omega
  · intro q r
    show V c main_arg3 (((cfg1.win 4).blk t).view.emb (ix2 q r)) = _
    refine congrArg (V c main_arg3) ?_
    funext a; apply Fin.ext
    match a with
    | ⟨0, _⟩ => show win1_4.index t (0 : Fin 2) * 256 + 1 * q.val = win1_7.index t (1 : Fin 2) * 256 + q.val; omega
    | ⟨1, _⟩ => show win1_4.index t (1 : Fin 2) * 256 + 1 * r.val = r.val; omega
  · intro q g
    show V c main_arg4 (((cfg1.win 5).blk t).view.emb (ix2 q g)) = _
    refine congrArg (V c main_arg4) ?_
    funext a; apply Fin.ext
    match a with
    | ⟨0, _⟩ => show win1_5.index t (0 : Fin 2) * 256 + 1 * q.val = win1_7.index t (1 : Fin 2) * 256 + q.val; omega
    | ⟨1, _⟩ => show win1_5.index t (1 : Fin 2) * 2 + 1 * g.val = g.val; omega
  · intro q
    show V c main_v0 (((cfg1.win 6).blk t).view.emb (ix2 (0 : Fin 1) q)) = _
    refine congrArg (V c main_v0) ?_
    funext a; apply Fin.ext
    match a with
    | ⟨0, _⟩ => show win1_6.index t (0 : Fin 2) * 1 + 1 * 0 = 0; omega
    | ⟨1, _⟩ => show win1_6.index t (1 : Fin 2) * 256 + 1 * q.val = win1_7.index t (1 : Fin 2) * 256 + q.val; omega

/-- An entry of the output array lies in point t's tile exactly when each of its coordinates lies in the tile's 256 rows,
    resp. columns. -/
theorem mem_tile (t : Fin cfg1.N) (i : S8192x4096.Idx) :
    i ∈ ((cfg1.win 7).blk t).view.set ↔ ∀ a : Fin 2, win1_7.index t a * S256x256.size a ≤ (i a).val
      ∧ (i a).val < win1_7.index t a * S256x256.size a + S256x256.size a := by
  show i ∈ ((View.whole main_v2).slice (win1_7.rect t)).set ↔ _
  rw [View.set_slice_whole, Rect.mem_set_unit]
  exact Iff.rfl

/-- The tiles cover the output array: entry (a, b) lies in tile (a / 256, b / 256), which point 16·(a / 256) + b / 256
    writes back. -/
theorem tiles_cover (i : S8192x4096.Idx) :
    ∃ t : Fin cfg1.N, (cfg1.win 7).flush t = true ∧ i ∈ ((cfg1.win 7).blk t).view.set := by
  have hi0 : (i 0).val < 8192 := (i 0).isLt
  have hi1 : (i 1).val < 4096 := (i 1).isLt
  have hN : grid1.N = 512 := N_1
  let t : Fin cfg1.N := ⟨(i 0).val / 256 * 16 + (i 1).val / 256, by show _ < grid1.N; omega⟩
  obtain ⟨e0, e1⟩ := tile_of_point t
  have q0 : win1_7.index t (0 : Fin 2) = (i 0).val / 256 := by
    rw [e0]; show ((i 0).val / 256 * 16 + (i 1).val / 256) / 16 = (i 0).val / 256; omega
  have q1 : win1_7.index t (1 : Fin 2) = (i 1).val / 256 := by
    rw [e1]; show ((i 0).val / 256 * 16 + (i 1).val / 256) % 16 = (i 1).val / 256; omega
  refine ⟨t, flush1_7 t, ?_⟩
  rw [mem_tile]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 256 ≤ (i 1).val ∧ (i 1).val < win1_7.index t (1 : Fin 2) * 256 + 256; omega

/-- After the second launch its output array is the layer's output computed from the arrays the launch found, the
    projection read from the first launch's output array and the bias from the one-row array. -/
theorem arr1 (c : Dev nD) :
    (dat1 (F := Ideal) V c).arrAt 7 cfg1.N
      = outSpec (V c main_arg0) (V c main_arg1) (V c main_arg2) (V c main_v1) (V c main_arg3) (V c main_arg4)
          (fun o => V c main_v0 (ix2 (0 : Fin 1) o)) := by
  exact (dat1 V c).arrAt_eq_of_cover 7 _ (fun t _ => tile_written V c t) tiles_cover

end Cert.LowRank

end
-- ==== Proof.Value.lean ====
/-
  The kernel program's result as one function of the launch memory.

  The result array ends at what the second launch leaves, which is the layer's output computed from the arrays that
  launch found; those are the launch memory's x, codes and scales of Q and L, the one-row bias array (the bias vector
  in row-major order, so its entry (0, o) is the vector's entry o) and the projection array the first launch left,
  which in turn is the projection of the launch memory's x, codes and scales of R.
-/
import proofs.«173456_j4166118277881_1_alg».proof.Proof.Run
import proofs.«173456_j4166118277881_1_alg».proof.Proof.Region0
import proofs.«173456_j4166118277881_1_alg».proof.Proof.Region1

noncomputable section

namespace Cert.KernelIdeal.Named

open Cert.KernelIdeal Cert.KernelIdeal.Gen Cert.LowRank
open Idealize.ShloMosaic Idealize.ShloMosaic.TcCoe Idealize.SL.Sem Idealize.ShloMosaic.ValueIdx

variable (m : (ℓ : Loc nD τ sig) → Buf (Elt Ideal) ℓ) (ρ : Dev nD → PrngReg)

/-- The layer's output as a function of the launch memory on core `c`. -/
def result (c : Dev nD) : FVec Ideal ⟨2, ![8192, 4096]⟩ .f32 :=
  outSpec (m ((c : Thread nD τ).loc main_arg0)) (m ((c : Thread nD τ).loc main_arg1)) (m ((c : Thread nD τ).loc main_arg2))
    (xrSpec (m ((c : Thread nD τ).loc main_arg0)) (m ((c : Thread nD τ).loc main_arg5)) (m ((c : Thread nD τ).loc main_arg6)))
    (m ((c : Thread nD τ).loc main_arg3)) (m ((c : Thread nD τ).loc main_arg4))
    (fun o => m ((c : Thread nD τ).loc main_arg7) (ix1 o))

/-- The result array at the last boundary is that function. -/
theorem result_eq (c : Dev nD) : W3 m ρ c (Proc.devRef .tc main_v2) = result m c := by
  rw [W3_main_v2, arr1 (V2 m ρ) c, V2_main_arg0, V2_main_arg1, V2_main_arg2, V2_main_arg3, V2_main_arg4, V2_main_v1,
    arr0 (V1 m ρ) c, V1_main_arg0, V1_main_arg5, V1_main_arg6, V2_main_v0]
  unfold result
  simp only [row_apply]

/-- Every weakly fair execution of the kernel program terminates, nothing faulting, with the result array at the
    layer's output of the launch memory and the argument arrays as launched. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named m ρ)

end Cert.KernelIdeal.Named

end
-- ==== Proof.RefSpec.lean ====
/-
  The reference program's result, read entry by entry, is the specification.
-/
import proofs.«173456_j4166118277881_1_alg».proof.Proof.Gen.ReferenceIdeal.Read
import proofs.«173456_j4166118277881_1_alg».proof.Proof.Spec

noncomputable section

open scoped BigOperators

namespace Cert.LowRank

open Idealize.ShloMosaic Idealize.ShloMosaic.ValueIdx Cert.ReferenceIdeal Cert.ReferenceIdeal.Read

variable [Cert.ReferenceIdeal.Facts]

/-- The reference builds Q by viewing the codes as [4096, 32, 128], multiplying each group of 128 by its scale, and viewing
    the product as [4096, 4096] again.  Entry (o, k) sits at (o, k / 128, k % 128) of the grouped view, whose flat position
    is again o * 4096 + k, so it is the code at (o, k) times the scale at (o, k / 128). -/
theorem refQ_entry (x1 : (⟨S4096x4096, .i32⟩ : BufTy).Contents (Elt Ideal)) (x2 : (⟨S4096x32, .f32⟩ : BufTy).Contents (Elt Ideal))
    (o : Fin 4096) (k : Fin 4096) :
    val_main_v5 (F := Ideal) x1 x2 (ix2 o k) = deq32 x1 x2 o k := by
  rw [val_main_v5_apply, val_main_v4_apply, val_main_v1_apply, val_main_v0_apply, val_main_v3_apply, val_main_v2_apply]
  have e1 : idx_main_v1 (idx_main_v5 (ix2 o k)) = ix2 o k := funext fun a => Fin.ext (by
    have ho := o.isLt
    have hk := k.isLt
    match a with
    | ⟨0, _⟩ =>
      show (((o.val * 4096 + k.val) / 4096 * 32 + (o.val * 4096 + k.val) / 128 % 32) * 128 + (o.val * 4096 + k.val) % 128) / 4096 = o.val
      omega
    | ⟨1, _⟩ =>
      show (((o.val * 4096 + k.val) / 4096 * 32 + (o.val * 4096 + k.val) / 128 % 32) * 128 + (o.val * 4096 + k.val) % 128) % 4096 = k.val
      omega)
  have e2 : idx_main_v2 (idx_main_v3 (idx_main_v5 (ix2 o k))) = ix2 o (g32 k) := funext fun a => Fin.ext (by
    have ho := o.isLt
    have hk := k.isLt
    match a with
    | ⟨0, _⟩ =>
      show (o.val * 4096 + k.val) / 4096 = o.val
      omega
    | ⟨1, _⟩ =>
      show (o.val * 4096 + k.val) / 128 % 32 = k.val / 128
      omega)
  rw [e1, e2]
  rfl

/-- The same reading for L, whose 256 columns form two groups: entry (o, r) is the code at (o, r) times the scale at
    (o, r / 128). -/
theorem refL_entry (x3 : (⟨S4096x256, .i32⟩ : BufTy).Contents (Elt Ideal)) (x4 : (⟨S4096x2, .f32⟩ : BufTy).Contents (Elt Ideal))
    (o : Fin 4096) (r : Fin 256) :
    val_main_v11 (F := Ideal) x3 x4 (ix2 o r) = deq2 x3 x4 o r := by
  rw [val_main_v11_apply, val_main_v10_apply, val_main_v7_apply, val_main_v6_apply, val_main_v9_apply, val_main_v8_apply]
  have e1 : idx_main_v7 (idx_main_v11 (ix2 o r)) = ix2 o r := funext fun a => Fin.ext (by
    have ho := o.isLt
    have hr := r.isLt
    match a with
    | ⟨0, _⟩ =>
      show (((o.val * 256 + r.val) / 256 * 2 + (o.val * 256 + r.val) / 128 % 2) * 128 + (o.val * 256 + r.val) % 128) / 256 = o.val
      omega
    | ⟨1, _⟩ =>
      show (((o.val * 256 + r.val) / 256 * 2 + (o.val * 256 + r.val) / 128 % 2) * 128 + (o.val * 256 + r.val) % 128) % 256 = r.val
      omega)
  have e2 : idx_main_v8 (idx_main_v9 (idx_main_v11 (ix2 o r))) = ix2 o (g2 r) := funext fun a => Fin.ext (by
    have ho := o.isLt
    have hr := r.isLt
    match a with
    | ⟨0, _⟩ =>
      show (o.val * 256 + r.val) / 256 = o.val
      omega
    | ⟨1, _⟩ =>
      show (o.val * 256 + r.val) / 128 % 2 = r.val / 128
      omega)
  rw [e1, e2]
  rfl

/-- The same reading for R, a 256-row matrix of 4096 columns in 32 groups: entry (r, k) is the code at (r, k) times the
    scale at (r, k / 128). -/
theorem refR_entry (x5 : (⟨S256x4096, .i32⟩ : BufTy).Contents (Elt Ideal)) (x6 : (⟨S256x32, .f32⟩ : BufTy).Contents (Elt Ideal))
    (r : Fin 256) (k : Fin 4096) :
    val_main_v17 (F := Ideal) x5 x6 (ix2 r k) = deq32 x5 x6 r k := by
  rw [val_main_v17_apply, val_main_v16_apply, val_main_v13_apply, val_main_v12_apply, val_main_v15_apply, val_main_v14_apply]
  have e1 : idx_main_v13 (idx_main_v17 (ix2 r k)) = ix2 r k := funext fun a => Fin.ext (by
    have hr := r.isLt
    have hk := k.isLt
    match a with
    | ⟨0, _⟩ =>
      show (((r.val * 4096 + k.val) / 4096 * 32 + (r.val * 4096 + k.val) / 128 % 32) * 128 + (r.val * 4096 + k.val) % 128) / 4096 = r.val
      omega
    | ⟨1, _⟩ =>
      show (((r.val * 4096 + k.val) / 4096 * 32 + (r.val * 4096 + k.val) / 128 % 32) * 128 + (r.val * 4096 + k.val) % 128) % 4096 = k.val
      omega)
  have e2 : idx_main_v14 (idx_main_v15 (idx_main_v17 (ix2 r k))) = ix2 r (g32 k) := funext fun a => Fin.ext (by
    have hr := r.isLt
    have hk := k.isLt
    match a with
    | ⟨0, _⟩ =>
      show (r.val * 4096 + k.val) / 4096 = r.val
      omega
    | ⟨1, _⟩ =>
      show (r.val * 4096 + k.val) / 128 % 32 = k.val / 128
      omega)
  rw [e1, e2]
  rfl

/-- The reference's projection x·Rᵀ at (t, r) is the row x(t, ·) against the row R(r, ·). -/
theorem refXr_entry (x0 : (⟨S8192x4096, .f32⟩ : BufTy).Contents (Elt Ideal)) (x5 : (⟨S256x4096, .i32⟩ : BufTy).Contents (Elt Ideal))
    (x6 : (⟨S256x32, .f32⟩ : BufTy).Contents (Elt Ideal)) (t : Fin 8192) (r : Fin 256) :
    val_main_v18 (F := Ideal) x0 x5 x6 (ix2 t r) = xrAt x0 x5 x6 t r := by
  rw [val_main_v18_apply]
  unfold xrAt
  refine Finset.sum_congr rfl fun k _ => ?_
  have el : lidx_main_v18 (ix2 t r) k = ix2 t k := funext fun a => Fin.ext (by
    match a with
    | ⟨0, _⟩ => rfl
    | ⟨1, _⟩ => rfl)
  have er : ridx_main_v18 (ix2 t r) k = ix2 r k := funext fun a => Fin.ext (by
    match a with
    | ⟨0, _⟩ => rfl
    | ⟨1, _⟩ => rfl)
  rw [el, er, refR_entry]

/-- The reference's x·Qᵀ at (t, o). -/
theorem refXQ_entry (x0 : (⟨S8192x4096, .f32⟩ : BufTy).Contents (Elt Ideal)) (x1 : (⟨S4096x4096, .i32⟩ : BufTy).Contents (Elt Ideal))
    (x2 : (⟨S4096x32, .f32⟩ : BufTy).Contents (Elt Ideal)) (t : Fin 8192) (o : Fin 4096) :
    val_main_v19 (F := Ideal) x0 x1 x2 (ix2 t o) = ∑ k : Fin 4096, x0 (ix2 t k) * deq32 x1 x2 o k := by
  rw [val_main_v19_apply]
  refine Finset.sum_congr rfl fun k _ => ?_
  have el : lidx_main_v19 (ix2 t o) k = ix2 t k := funext fun a => Fin.ext (by
    match a with
    | ⟨0, _⟩ => rfl
    | ⟨1, _⟩ => rfl)
  have er : ridx_main_v19 (ix2 t o) k = ix2 o k := funext fun a => Fin.ext (by
    match a with
    | ⟨0, _⟩ => rfl
    | ⟨1, _⟩ => rfl)
  rw [el, er, refQ_entry]

/-- The reference's (x·Rᵀ)·Lᵀ at (t, o), with the projection written as the specification's array. -/
theorem refXrL_entry (x0 : (⟨S8192x4096, .f32⟩ : BufTy).Contents (Elt Ideal)) (x3 : (⟨S4096x256, .i32⟩ : BufTy).Contents (Elt Ideal))
    (x4 : (⟨S4096x2, .f32⟩ : BufTy).Contents (Elt Ideal)) (x5 : (⟨S256x4096, .i32⟩ : BufTy).Contents (Elt Ideal))
    (x6 : (⟨S256x32, .f32⟩ : BufTy).Contents (Elt Ideal)) (t : Fin 8192) (o : Fin 4096) :
    val_main_v20 (F := Ideal) x0 x3 x4 x5 x6 (ix2 t o)
      = ∑ r : Fin 256, xrSpec x0 x5 x6 (ix2 t r) * deq2 x3 x4 o r := by
  rw [val_main_v20_apply]
  refine Finset.sum_congr rfl fun r _ => ?_
  have el : lidx_main_v20 (ix2 t o) r = ix2 t r := funext fun a => Fin.ext (by
    match a with
    | ⟨0, _⟩ => rfl
    | ⟨1, _⟩ => rfl)
  have er : ridx_main_v20 (ix2 t o) r = ix2 o r := funext fun a => Fin.ext (by
    match a with
    | ⟨0, _⟩ => rfl
    | ⟨1, _⟩ => rfl)
  rw [el, er, refXr_entry, refL_entry, xrSpec_ix2]

/-- The bias, broadcast over the tokens: at (t, o) it is the bias vector's entry o. -/
theorem refBias_entry (x7 : (⟨S4096, .f32⟩ : BufTy).Contents (Elt Ideal)) (t : Fin 8192) (o : Fin 4096) :
    val_main_v23 (F := Ideal) x7 (ix2 t o) = x7 (ix1 o) := by
  rw [val_main_v23_apply, val_main_v22_apply]
  have e : idx_main_v22 (idx_main_v23 (ix2 t o)) = ix1 o := funext fun a => Fin.ext (by
    match a with
    | ⟨0, _⟩ => rfl)
  rw [e]

/-- The reference's last stage is the layer's output with the projection computed from x and R, and the bias read off
    the bias vector. -/
theorem ref_eq (x0 : (⟨S8192x4096, .f32⟩ : BufTy).Contents (Elt Ideal)) (x1 : (⟨S4096x4096, .i32⟩ : BufTy).Contents (Elt Ideal))
    (x2 : (⟨S4096x32, .f32⟩ : BufTy).Contents (Elt Ideal)) (x3 : (⟨S4096x256, .i32⟩ : BufTy).Contents (Elt Ideal))
    (x4 : (⟨S4096x2, .f32⟩ : BufTy).Contents (Elt Ideal)) (x5 : (⟨S256x4096, .i32⟩ : BufTy).Contents (Elt Ideal))
    (x6 : (⟨S256x32, .f32⟩ : BufTy).Contents (Elt Ideal)) (x7 : (⟨S4096, .f32⟩ : BufTy).Contents (Elt Ideal)) :
    val_main_v24 (F := Ideal) x0 x1 x2 x3 x4 x5 x6 x7
      = outSpec x0 x1 x2 (xrSpec x0 x5 x6) x3 x4 (fun o => x7 (ix1 o)) := by
  funext j
  obtain ⟨t, o, rfl⟩ : ∃ (t : Fin 8192) (o : Fin 4096), j = ix2 t o := ⟨j 0, j 1, eq_ix2 j⟩
  rw [outSpec_ix2, val_main_v24_apply, val_main_v21_apply, refXQ_entry, refXrL_entry, refBias_entry]
  rfl

end Cert.LowRank

end
-- ==== Proof.lean ====
/-
  The certificate: a layer y = x·Qᵀ + (x·Rᵀ)·Lᵀ + bias whose weight matrices Q, L, R are stored as integer codes with
  one scale per group of 128 columns, computed by two tiled launches (first the projection x·Rᵀ, then the output tile
  by tile) against the plain array program.

  At the ideal values both programs compute, at token t and output o,
      Σ_k x(t,k)·Q(o,k) + Σ_r (Σ_k x(t,k)·R(r,k))·L(o,r) + bias(o),
  with each weight its code times its group's scale: the kernel's tiles are restrictions of this one function and
  cover the arrays, a matrix product into a zero accumulator is the same finite sum as the array program's
  contraction, a change of float format is the identity, and the terms are added in the same order (base, low rank,
  bias).  Nothing depends on the inputs being finite.  The three frames are the generated ones (the array program's
  is its run with the result dropped), and the idealization rewrote nothing.
-/
import proofs.«173456_j4166118277881_1_alg».proof.Defs
import proofs.«173456_j4166118277881_1_alg».proof.Proof.Gen.Kernel
import proofs.«173456_j4166118277881_1_alg».proof.Proof.Gen.Kernel.Skeleton
import proofs.«173456_j4166118277881_1_alg».proof.Proof.Gen.Kernel.Launch
import proofs.«173456_j4166118277881_1_alg».proof.Proof.Gen.Kernel.Points
import proofs.«173456_j4166118277881_1_alg».proof.Proof.Gen.Kernel.Frame
import proofs.«173456_j4166118277881_1_alg».proof.Proof.Gen.KernelIdeal
import proofs.«173456_j4166118277881_1_alg».proof.Proof.Gen.KernelIdeal.Skeleton
import proofs.«173456_j4166118277881_1_alg».proof.Proof.Gen.KernelIdeal.Launch
import proofs.«173456_j4166118277881_1_alg».proof.Proof.Gen.KernelIdeal.Points
import proofs.«173456_j4166118277881_1_alg».proof.Proof.Gen.KernelIdeal.Frame
import proofs.«173456_j4166118277881_1_alg».proof.Proof.Gen.ReferenceIdeal
import proofs.«173456_j4166118277881_1_alg».proof.Proof.Gen.ReferenceIdeal.Run
import proofs.«173456_j4166118277881_1_alg».proof.Proof.Gen.ReferenceIdeal.Read
import proofs.«173456_j4166118277881_1_alg».proof.Proof.Gen.Pre_finite_inputs
import proofs.«173456_j4166118277881_1_alg».proof.Proof.Value
import proofs.«173456_j4166118277881_1_alg».proof.Proof.RefSpec
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The array program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel program's result array ends at the layer's output of its launch
    memory, and the array program's result at the same function of its own, which agrees argument by argument. -/
theorem algebraic : Cert.algebraic_KernelIdeal_ReferenceIdeal := by
  intro m ρ m' ρ' _ hagree
  refine ⟨_, Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.LowRank.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
